-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S50000x256 : Shape := ⟨2, ![50000, 256]⟩
abbrev S5 : Shape := ⟨1, ![5]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_

variable [Facts]

def fn {F : FTy → Type} [FloatOps F] (main_arg0 : FVec F S262144x256 .f32) (main_arg1 : FVec F S262144x256 .f32) (main_arg2 : FVec F S50000x256 .f32) (main_arg3 : IVec S5 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  main_v13
-- ==== Kernel.lean ====
abbrev S262144x256 : Shape := ⟨2, ![262144, 256]⟩
abbrev S50000x256 : Shape := ⟨2, ![50000, 256]⟩
abbrev S5 : Shape := ⟨1, ![5]⟩
abbrev S_ : Shape := ⟨0, ![]⟩
abbrev S5x1 : Shape := ⟨2, ![5, 1]⟩
abbrev S5x256 : Shape := ⟨2, ![5, 256]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S256x5 : Shape := ⟨2, ![256, 5]⟩
abbrev S2048x5 : Shape := ⟨2, ![2048, 5]⟩
abbrev S1 : Shape := ⟨1, ![1]⟩

abbrev nBuf : Space → Nat
  | .hbm => 15
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S50000x256, .f32⟩
  | .hbm, ⟨3, _⟩ => ⟨S5, .i32⟩
  | .hbm, ⟨4, _⟩ => ⟨S_, .i32⟩
  | .hbm, ⟨5, _⟩ => ⟨S5, .i32⟩
  | .hbm, ⟨6, _⟩ => ⟨S5, .i1⟩
  | .hbm, ⟨7, _⟩ => ⟨S_, .i32⟩
  | .hbm, ⟨8, _⟩ => ⟨S5, .i32⟩
  | .hbm, ⟨9, _⟩ => ⟨S5, .i32⟩
  | .hbm, ⟨10, _⟩ => ⟨S5, .i32⟩
  | .hbm, ⟨11, _⟩ => ⟨S5x1, .i32⟩
  | .hbm, ⟨12, _⟩ => ⟨S5x256, .f32⟩
  | .hbm, ⟨13, _⟩ => ⟨S1x1, .f32⟩
  | .hbm, ⟨14, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S5x256, .f32⟩
  | .local _ .vmem, ⟨5, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S5 : S_.BroadcastsInDim S5 (![] : Fin 0 → Fin S5.rank)
  bcast_S5_S5x1_0 : S5.BroadcastsInDim S5x1 (![0] : Fin 1 → Fin S5x1.rank)
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S5x256_S5x256_0_0 : ∀ a, (![0, 0] : Fin 2 → Nat) a + S5x256.size a ≤ S5x256.size a
  h_S5x256 : 0 < S5x256.numel
  shapeCasts_S5x256_S5x256 : S5x256.ShapeCasts S5x256
  bitsLt_bf16_f32 : FTy.bits .bf16 < FTy.bits .f32
  transposes_S5x256_p1_0_S256x5 : S5x256.Transposes [1, 0] S256x5
  reduces_S2048x5_S2048 : S2048x5.Reduces [1] S2048
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  gather_S50000x256_S5x1_S5x256_1_0_n_n_0_1_1256_wf : GatherDims.WF S50000x256 S5x1 S5x256 [1] [0] [] [0] [] 1 ![1, 256]
  dot_S2048x256_S256x5_S2048x5_1_0_0_1_n_n_wf : DotDims.WF S2048x256 S256x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x256.size a ≤ S5x256.size a
  hwx0_2 : ∀ i : grid0.Coords, EltTy.bits .f32 = 32 ∨ (Rect.block (s := S5x256) S5x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S50000x256_S5x1_S5x256_1_0_n_n_0_1_1256 : GatherDims S50000x256 S5x1 S5x256 where
  offsetDims := [1]
  collapsedSliceDims := [0]
  operandBatchingDims := []
  startIndicesBatchingDims := []
  startIndexMap := [0]
  indexVectorDim := 1
  sliceSizes := ![1, 256]
  wf := gather_S50000x256_S5x1_S5x256_1_0_n_n_0_1_1256_wf
def dot_S2048x256_S256x5_S2048x5_1_0_0_1_n_n : DotDims S2048x256 S256x5 S2048x5 where
  lhsContracting := [1]
  rhsContracting := [0]
  lhsNonContracting := [0]
  rhsNonContracting := [1]
  lhsBatch := []
  rhsBatch := []
  wf := dot_S2048x256_S256x5_S2048x5_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S50000x256 : Shape := ⟨2, ![50000, 256]⟩
abbrev S5 : Shape := ⟨1, ![5]⟩
abbrev S_ : Shape := ⟨0, ![]⟩
abbrev S262144 : Shape := ⟨1, ![262144]⟩
abbrev S5x1 : Shape := ⟨2, ![5, 1]⟩
abbrev S5x256 : Shape := ⟨2, ![5, 256]⟩
abbrev S262144x5 : Shape := ⟨2, ![262144, 5]⟩

abbrev nBuf : Space → Nat
  | .hbm => 49
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S50000x256, .f32⟩
  | .hbm, ⟨3, _⟩ => ⟨S5, .i32⟩
  | .hbm, ⟨4, _⟩ => ⟨S262144x256, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S_, .f32⟩
  | .hbm, ⟨13, _⟩ => ⟨S262144, .f32⟩
  | .hbm, ⟨14, _⟩ => ⟨S262144, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S262144, .f32⟩
  | .hbm, ⟨20, _⟩ => ⟨S_, .i32⟩
  | .hbm, ⟨21, _⟩ => ⟨S5, .i32⟩
  | .hbm, ⟨22, _⟩ => ⟨S5, .i1⟩
  | .hbm, ⟨23, _⟩ => ⟨S_, .i32⟩
  | .hbm, ⟨24, _⟩ => ⟨S5, .i32⟩
  | .hbm, ⟨25, _⟩ => ⟨S5, .i32⟩
  | .hbm, ⟨26, _⟩ => ⟨S5, .i32⟩
  | .hbm, ⟨27, _⟩ => ⟨S5x1, .i32⟩
  | .hbm, ⟨28, _⟩ => ⟨S5x256, .f32⟩
  | .hbm, ⟨29, _⟩ => ⟨S262144x5, .f32⟩
  | .hbm, ⟨30, _⟩ => ⟨S262144x5, .f32⟩
  | .hbm, ⟨31, _⟩ => ⟨S262144x5, .f32⟩
  | .hbm, ⟨32, _⟩ => ⟨S262144x5, .f32⟩
  | .hbm, ⟨33, _⟩ => ⟨S_, .f32⟩
  | .hbm, ⟨34, _⟩ => ⟨S262144x5, .f32⟩
  | .hbm, ⟨35, _⟩ => ⟨S262144x5, .f32⟩
  | .hbm, ⟨36, _⟩ => ⟨S_, .f32⟩
  | .hbm, ⟨37, _⟩ => ⟨S262144x5, .f32⟩
  | .hbm, ⟨38, _⟩ => ⟨S262144x5, .f32⟩
  | .hbm, ⟨39, _⟩ => ⟨S_, .f32⟩
  | .hbm, ⟨40, _⟩ => ⟨S_, .f32⟩
  | .hbm, ⟨41, _⟩ => ⟨S262144x5, .f32⟩
  | .hbm, ⟨42, _⟩ => ⟨S262144x5, .f32⟩
  | .hbm, ⟨43, _⟩ => ⟨S262144x5, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S_S262144 : S_.BroadcastsInDim S262144 (![] : Fin 0 → Fin S262144.rank)
  bcast_S_S5 : S_.BroadcastsInDim S5 (![] : Fin 0 → Fin S5.rank)
  bcast_S5_S5x1_0 : S5.BroadcastsInDim S5x1 (![0] : Fin 1 → Fin S5x1.rank)
  bcast_S_S262144x5 : S_.BroadcastsInDim S262144x5 (![] : Fin 0 → Fin S262144x5.rank)
  reducesTo_S262144x5_S262144_d1 : S262144x5.ReducesTo [1] S262144
  reducesTo_S262144_S_d0 : S262144.ReducesTo [0] S_
  gather_S50000x256_S5x1_S5x256_1_0_n_n_0_1_1256_wf : GatherDims.WF S50000x256 S5x1 S5x256 [1] [0] [] [0] [] 1 ![1, 256]
  dot_S262144x256_S5x256_S262144x5_1_1_0_0_n_n_wf : DotDims.WF S262144x256 S5x256 S262144x5 [1] [1] [0] [0] [] []

variable [Facts₀]

def gather_S50000x256_S5x1_S5x256_1_0_n_n_0_1_1256 : GatherDims S50000x256 S5x1 S5x256 where
  offsetDims := [1]
  collapsedSliceDims := [0]
  operandBatchingDims := []
  startIndicesBatchingDims := []
  startIndexMap := [0]
  indexVectorDim := 1
  sliceSizes := ![1, 256]
  wf := gather_S50000x256_S5x1_S5x256_1_0_n_n_0_1_1256_wf
def dot_S262144x256_S5x256_S262144x5_1_1_0_0_n_n : DotDims S262144x256 S5x256 S262144x5 where
  lhsContracting := [1]
  rhsContracting := [1]
  lhsNonContracting := [0]
  rhsNonContracting := [0]
  lhsBatch := []
  rhsBatch := []
  wf := dot_S262144x256_S5x256_S262144x5_1_1_0_0_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The skip-gram negative-sampling loss as one function of the argument arrays, over the extended reals.

For a batch row with context vector `c`, target vector `t` and the five sampled embedding rows `s j`,
the row's loss is `log (max ε (σ ⟨c, t⟩)) + ∑ j, log (max β (σ (-⟨c, s j⟩)))`, where `σ` is the logistic
function and `ε`, `β` are the two clamping constants (kept as their binary words: both programs hold the
same words). The loss is the sum of the rows' losses over the whole batch; a tile's loss is the same sum over
the 2048 rows of one tile.
-/

noncomputable section

namespace Cert.Sgns

open Idealize.ShloMosaic Idealize.ShloMosaic.ValueIdx

/-- The positive term at a dot product `d`: `log (max ε (σ d))`. -/
def posTerm (d : EReal) : EReal :=
  Ideal.log (max (Ideal.ofBits .f32 0x3089705F#32) (Ideal.logistic d))

/-- The negative term at a dot product `d`: `log (max β (σ (-d)))`. -/
def negTerm (d : EReal) : EReal :=
  Ideal.log (max (Ideal.ofBits .f32 0x3F400000#32) (Ideal.logistic (-d)))

/-- One batch row's loss from its context vector, its target vector and the five sampled rows. -/
def rowLoss (c t : Fin 256 → EReal) (s : Fin 5 → Fin 256 → EReal) : EReal :=
  posTerm (∑ k : Fin 256, c k * t k) + ∑ j : Fin 5, negTerm (∑ k : Fin 256, c k * s j k)

/-- The loss of a tile of 2048 rows. -/
def tileLoss (x0 x1 : (⟨2, ![2048, 256]⟩ : Shape).Idx → EReal) (x2 : (⟨2, ![5, 256]⟩ : Shape).Idx → EReal) : EReal :=
  ∑ r : Fin 2048, rowLoss (fun k => x0 (ix2 r k)) (fun k => x1 (ix2 r k)) (fun j k => x2 (ix2 j k))

/-- The loss of the whole batch of 262144 rows. -/
def loss (x0 x1 : (⟨2, ![262144, 256]⟩ : Shape).Idx → EReal) (x2 : (⟨2, ![5, 256]⟩ : Shape).Idx → EReal) : EReal :=
  ∑ b : Fin 262144, rowLoss (fun k => x0 (ix2 b k)) (fun k => x1 (ix2 b k)) (fun j k => x2 (ix2 j k))

end Cert.Sgns

end
-- ==== Proof.RefLoss.lean ====
import proofs.«177092_j56530359550797_1_alg».proof.Proof.Gen.ReferenceIdeal.Read
import proofs.«177092_j56530359550797_1_alg».proof.Proof.Spec
import Idealize.ShloMosaic.Lib.IdealHost
import Idealize.ShloMosaic.Lib.ValueIdx

/-!
The reference program computes the skip-gram negative-sampling loss of the specification.

Reading the reference one operation at a time, row `b` of the batch contributes
`log (max ε (1 / (1 + exp (-⟨x0 b, x1 b⟩)))) + ∑ j, log (max β (1 / (1 + exp (-(-⟨x0 b, G j⟩)))))`,
where `G` is the array of the five sampled embedding rows, and `1 / (1 + exp (-d))` is by definition the
logistic function at `d`. The result is the sum of these contributions over all rows, which is the
specification's `loss`. The initial value of every sum is the zero word, so it drops out.
-/

noncomputable section

namespace Cert.ReferenceIdeal.RefLoss

open Cert.ReferenceIdeal Cert.ReferenceIdeal.Gen Cert.ReferenceIdeal.Read Idealize.ShloMosaic Idealize.ShloMosaic.ValueIdx

/-! ## The composed index functions, in coordinates -/

/-- Row `b`, column `k` of the product array. -/
theorem idx_v1_eq (b : Fin 262144) (k : Fin 256) : idx_main_v1 (ix1 b) k = ix2 b k :=
  funext fun a => Fin.ext (by match a with | ⟨0, _⟩ => rfl | ⟨1, _⟩ => rfl)

/-- The left operand of the contraction at result entry `(b, j)` and contracted position `k` is `(b, k)`. -/
theorem lidx_v17_eq (b : Fin 262144) (j : Fin 5) (k : Fin 256) : lidx_main_v17 (ix2 b j) k = ix2 b k :=
  funext fun a => Fin.ext (by match a with | ⟨0, _⟩ => rfl | ⟨1, _⟩ => rfl)

/-- The right operand of the contraction at result entry `(b, j)` and contracted position `k` is `(j, k)`. -/
theorem ridx_v17_eq (b : Fin 262144) (j : Fin 5) (k : Fin 256) : ridx_main_v17 (ix2 b j) k = ix2 j k :=
  funext fun a => Fin.ext (by match a with | ⟨0, _⟩ => rfl | ⟨1, _⟩ => rfl)

/-- Row `b`, sample `j` of the array of negative terms. -/
theorem idx_v27_eq (b : Fin 262144) (j : Fin 5) : idx_main_v27 (ix1 b) j = ix2 b j :=
  funext fun a => Fin.ext (by match a with | ⟨0, _⟩ => rfl | ⟨1, _⟩ => rfl)

/-- A sum over the rank-1 index set of the batch is the sum over the rows. -/
theorem sum_rows {M : Type*} [AddCommMonoid M] (f : S262144.Idx → M) :
    ∑ i, f i = ∑ b : Fin 262144, f (ix1 b) :=
  Fintype.sum_equiv
    ⟨fun i => i 0, fun b => ix1 b, fun i => (eq_ix1 i).symm, fun _ => rfl⟩ _ _
    (fun i => congrArg f (eq_ix1 i))

/-! ## One row -/

/-- The positive term of row `b`. -/
theorem pos_row (x0 x1 : (⟨S262144x256, .f32⟩ : BufTy).Contents (Elt Ideal)) (b : Fin 262144) :
    val_main_v9 (F := Ideal) x0 x1 (ix1 b)
      = Cert.Sgns.posTerm (∑ k : Fin 256, x0 (ix2 b k) * x1 (ix2 b k)) := by
  rw [val_main_v9_apply, val_main_v8_apply, val_main_call0_v1_apply, val_main_call0_v0_apply,
    val_main_cst_2_apply, val_main_v7_apply, val_main_v6_apply, val_main_cst_1_apply,
    val_main_v5_apply, val_main_v4_apply, val_main_cst_0_apply, val_main_v3_apply,
    val_main_v2_apply, val_main_v1_apply, val_main_cst_apply]
  simp only [val_main_v0_apply, idx_v1_eq]
  unfold Cert.Sgns.posTerm Ideal.logistic
  simp only [Ideal.ofBits_def, Ideal.addf_def, Ideal.mulf_def, Ideal.maximumf_def, Ideal.hostDivf_def,
    Ideal.hostUnary_exp_def, Ideal.hostUnary_log_def, Ideal.hostNegf_def, Ideal.negf_def,
    Ideal.ofBits_zero_f32, Ideal.ofBits_one_f32, zero_add]

/-- The negative term of row `b` against sampled row `j`. -/
theorem neg_entry (x0 : (⟨S262144x256, .f32⟩ : BufTy).Contents (Elt Ideal))
    (x2 : (⟨S50000x256, .f32⟩ : BufTy).Contents (Elt Ideal)) (x3 : (⟨S5, .i32⟩ : BufTy).Contents (Elt Ideal))
    (b : Fin 262144) (j : Fin 5) :
    val_main_v26 (F := Ideal) x0 x2 x3 (ix2 b j)
      = Cert.Sgns.negTerm (∑ k : Fin 256, x0 (ix2 b k) * val_main_v16 (F := Ideal) x2 x3 (ix2 j k)) := by
  rw [val_main_v26_apply, val_main_v25_apply, val_main_call1_v1_apply, val_main_call1_v0_apply,
    val_main_cst_6_apply, val_main_v24_apply, val_main_v23_apply, val_main_cst_5_apply,
    val_main_v22_apply, val_main_v21_apply, val_main_cst_4_apply, val_main_v20_apply,
    val_main_v19_apply, val_main_v18_apply, val_main_v17_apply]
  simp only [lidx_v17_eq, ridx_v17_eq]
  unfold Cert.Sgns.negTerm Ideal.logistic
  simp only [Ideal.ofBits_def, Ideal.addf_def, Ideal.maximumf_def, Ideal.hostDivf_def,
    Ideal.hostUnary_exp_def, Ideal.hostUnary_log_def, Ideal.hostNegf_def, Ideal.negf_def,
    Ideal.ofBits_one_f32]

/-- Row `b` of the array the reference sums last is the specification's loss of that row. -/
theorem row (x0 x1 : (⟨S262144x256, .f32⟩ : BufTy).Contents (Elt Ideal))
    (x2 : (⟨S50000x256, .f32⟩ : BufTy).Contents (Elt Ideal)) (x3 : (⟨S5, .i32⟩ : BufTy).Contents (Elt Ideal))
    (b : Fin 262144) :
    val_main_v28 (F := Ideal) x0 x1 x2 x3 (ix1 b)
      = Cert.Sgns.rowLoss (fun k => x0 (ix2 b k)) (fun k => x1 (ix2 b k))
          (fun j k => val_main_v16 (F := Ideal) x2 x3 (ix2 j k)) := by
  rw [val_main_v28_apply, val_main_v27_apply, val_main_cst_7_apply, pos_row]
  simp only [idx_v27_eq, neg_entry]
  unfold Cert.Sgns.rowLoss
  simp only [Ideal.ofBits_def, Ideal.addf_def, Ideal.ofBits_zero_f32, zero_add]

/-! ## The whole batch -/

/-- The reference's result is the specification's loss of its two dense arguments and the gathered rows. -/
theorem ref_loss (x0 x1 : (⟨S262144x256, .f32⟩ : BufTy).Contents (Elt Ideal))
    (x2 : (⟨S50000x256, .f32⟩ : BufTy).Contents (Elt Ideal)) (x3 : (⟨S5, .i32⟩ : BufTy).Contents (Elt Ideal))
    (i : S_.Idx) :
    val_main_v29 (F := Ideal) x0 x1 x2 x3 i
      = Cert.Sgns.loss x0 x1 (val_main_v16 (F := Ideal) x2 x3) := by
  rw [val_main_v29_apply, val_main_cst_8_apply, sum_rows]
  simp only [row]
  unfold Cert.Sgns.loss
  simp only [Ideal.ofBits_def, Ideal.ofBits_zero_f32, zero_add]

end Cert.ReferenceIdeal.RefLoss

end
-- ==== Proof.TilePayload.lean ====
import proofs.«177092_j56530359550797_1_alg».proof.Proof.Gen.KernelIdeal.Skeleton
import proofs.«177092_j56530359550797_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
The arithmetic of one tile, over the extended reals: the value the kernel's body adds to the running total is the
loss of the tile's 2048 rows.

Reading the body's one pure term from the inside out: the lane sum of the products of the context and target rows
is each row's dot product; the product of the context block with the transposed block of the five sampled rows is,
entry by entry, the dot product of a context row with a sampled row (rounding the operands to the narrow format is
the identity on extended reals); negating, applying the logistic function, clamping from below and taking the
logarithm gives the five negative terms, whose lane sum is added to the positive term: a row's loss. The sum over
the 2048 rows, added to the running total, is what the body stores.
-/

noncomputable section

namespace Cert.KernelIdeal.TilePayload

open Cert.KernelIdeal Cert.KernelIdeal.Gen Idealize.ShloMosaic Idealize.ShloMosaic.ValueIdx

/-! ## The layout operations and the two kinds of sum, read at coordinates -/

/-- A sum along the lanes of a `[2048, n]` array, read at row `r`: the sum over the `n` lanes of that row. -/
theorem laneSum_apply {n : Nat} (src : FVec Ideal ⟨2, ![2048, n]⟩ .f32)
    (h : (⟨2, ![2048, n]⟩ : Shape).Reduces [1] ⟨1, ![2048]⟩) (hφ : FKind.Formats .f32)
    (hacc : (0x00000000#32 : BitVec 32) = FKind.add.neutral .f32 hφ) (r : Fin 2048) :
    multiReduction (F := Ideal) .add [1] ⟨1, ![2048]⟩ src 0x00000000#32 h hφ hacc (ix1 r)
      = ∑ k : Fin n, src (ix2 r k) := by
  refine (Ideal.multiReduction_add_single src _ h hφ hacc (ix1 r)).trans ?_
  refine Finset.sum_congr rfl fun k _ => congrArg src ?_
  funext a
  refine Fin.ext ?_
  match a with
  | ⟨0, _⟩ => rfl
  | ⟨1, _⟩ => rfl

/-- A sum down the one column of a `[2048, 1]` array: the sum over its 2048 rows. -/
theorem colSum_apply (src : FVec Ideal ⟨2, ![2048, 1]⟩ .f32)
    (h : (⟨2, ![2048, 1]⟩ : Shape).Reduces [0] ⟨1, ![1]⟩) (hφ : FKind.Formats .f32)
    (hacc : (0x00000000#32 : BitVec 32) = FKind.add.neutral .f32 hφ) (q : Fin 1) :
    multiReduction (F := Ideal) .add [0] ⟨1, ![1]⟩ src 0x00000000#32 h hφ hacc (ix1 q)
      = ∑ r : Fin 2048, src (ix2 r q) := by
  refine (Ideal.multiReduction_add_single src _ h hφ hacc (ix1 q)).trans ?_
  refine Finset.sum_congr rfl fun r _ => congrArg src ?_
  funext a
  refine Fin.ext ?_
  match a with
  | ⟨0, _⟩ => rfl
  | ⟨1, _⟩ => rfl

/-- A vector of 2048 entries viewed as a column `[2048, 1]` reads, at `(r, u)`, its entry `r`. -/
theorem colCast_apply {α : Type} (x : (⟨1, ![2048]⟩ : Shape).Idx → α)
    (h : (⟨1, ![2048]⟩ : Shape).ShapeCasts ⟨2, ![2048, 1]⟩) (r : Fin 2048) (u : Fin 1) :
    shapeCast ⟨2, ![2048, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## The product of the context block with the transposed sampled rows -/

/-- The left operand's row coordinate at output `j` is `j`'s row. -/
theorem lhs_row (j : S2048x5.Idx) (q : dot_S2048x256_S256x5_S2048x5_1_0_0_1_n_n.contr.Idx) :
    (dot_S2048x256_S256x5_S2048x5_1_0_0_1_n_n.lhsIdx j q 0).val = (j 0).val := by
  unfold DotDims.lhsIdx
  rw [dif_neg (show ¬(0 : Fin S2048x256.rank) ∈ dot_S2048x256_S256x5_S2048x5_1_0_0_1_n_n.lhsBatch by decide),
    dif_pos (show (0 : Fin S2048x256.rank) ∈ dot_S2048x256_S256x5_S2048x5_1_0_0_1_n_n.lhsNonContracting by decide)]
  rfl

/-- The left operand's lane coordinate is the contraction coordinate. -/
theorem lhs_lane (j : S2048x5.Idx) (q : dot_S2048x256_S256x5_S2048x5_1_0_0_1_n_n.contr.Idx) :
    (dot_S2048x256_S256x5_S2048x5_1_0_0_1_n_n.lhsIdx j q 1).val = (q ⟨0, by decide⟩).val :=
  dot_S2048x256_S256x5_S2048x5_1_0_0_1_n_n.lhsIdx_val_of_single rfl j q

/-- The right operand's row coordinate is the contraction coordinate. -/
theorem rhs_row (j : S2048x5.Idx) (q : dot_S2048x256_S256x5_S2048x5_1_0_0_1_n_n.contr.Idx) :
    (dot_S2048x256_S256x5_S2048x5_1_0_0_1_n_n.rhsIdx j q 0).val = (q ⟨0, by decide⟩).val :=
  dot_S2048x256_S256x5_S2048x5_1_0_0_1_n_n.rhsIdx_val_of_single rfl j q

/-- The right operand's column coordinate at output `j` is `j`'s column. -/
theorem rhs_col (j : S2048x5.Idx) (q : dot_S2048x256_S256x5_S2048x5_1_0_0_1_n_n.contr.Idx) :
    (dot_S2048x256_S256x5_S2048x5_1_0_0_1_n_n.rhsIdx j q 1).val = (j 1).val := by
  unfold DotDims.rhsIdx
  rw [dif_neg (show ¬(1 : Fin S256x5.rank) ∈ dot_S2048x256_S256x5_S2048x5_1_0_0_1_n_n.rhsBatch by decide),
    dif_pos (show (1 : Fin S256x5.rank) ∈ dot_S2048x256_S256x5_S2048x5_1_0_0_1_n_n.rhsNonContracting by decide)]
  rfl

/-- The product into the zero accumulator, read at `(r, s)`: the sum over the 256 lanes of the left operand's row `r`
times the right operand's column `s`. -/
theorem matmul_apply_rs (lhs : FVec Ideal S2048x256 .bf16) (rhs : FVec Ideal S256x5 .bf16) (r : Fin 2048) (s : Fin 5) :
    matmul (F := Ideal) dot_S2048x256_S256x5_S2048x5_1_0_0_1_n_n none lhs rhs
        (constant (F := Ideal) S2048x5 .f32 0x00000000#32) (ix2 r s)
      = ∑ k : Fin 256, lhs (ix2 r k) * rhs (ix2 k s) := by
  refine (Ideal.matmul_constant_zero_apply dot_S2048x256_S256x5_S2048x5_1_0_0_1_n_n none lhs rhs (ix2 r s)).trans ?_
  rw [← Equiv.sum_comp (contrEquiv1 dot_S2048x256_S256x5_S2048x5_1_0_0_1_n_n 256 rfl rfl).symm]
  refine Finset.sum_congr rfl fun k _ => ?_
  have hk := contrEquiv1_symm_val dot_S2048x256_S256x5_S2048x5_1_0_0_1_n_n 256 rfl rfl k
  have el : dot_S2048x256_S256x5_S2048x5_1_0_0_1_n_n.lhsIdx (ix2 r s)
      ((contrEquiv1 dot_S2048x256_S256x5_S2048x5_1_0_0_1_n_n 256 rfl rfl).symm k) = ix2 r k :=
    funext fun a => Fin.ext (by
      match a with
      | ⟨0, _⟩ => exact lhs_row _ _
      | ⟨1, _⟩ => exact (lhs_lane _ _).trans hk)
  have er : dot_S2048x256_S256x5_S2048x5_1_0_0_1_n_n.rhsIdx (ix2 r s)
      ((contrEquiv1 dot_S2048x256_S256x5_S2048x5_1_0_0_1_n_n 256 rfl rfl).symm k) = ix2 k s :=
    funext fun a => Fin.ext (by
      match a with
      | ⟨0, _⟩ => exact (rhs_row _ _).trans hk
      | ⟨1, _⟩ => exact rhs_col _ _)
  rw [el, er]

/-! ## The body's arithmetic, stage by stage -/

/-- The dot product of every context row with every sampled row, as the body computes it: the product of the context
block with the transposed block of sampled rows, both rounded to the narrow format, into the zero accumulator. -/
def dots (x0 : FVec Ideal S2048x256 .f32) (x2 : FVec Ideal S5x256 .f32) : FVec Ideal S2048x5 .f32 :=
  matmul dot_S2048x256_S256x5_S2048x5_1_0_0_1_n_n none (truncf .bf16 x0 bitsLt_bf16_f32)
    (transpose S256x5 [1, 0] (truncf .bf16 (shapeCast S5x256 x2 shapeCasts_S5x256_S5x256) bitsLt_bf16_f32)
      transposes_S5x256_p1_0_S256x5)
    (constant S2048x5 .f32 0x00000000#32)

/-- The five negative terms of every row: `log (max β (σ (0 - ⟨c, s⟩)))`. -/
def negTerms (x0 : FVec Ideal S2048x256 .f32) (x2 : FVec Ideal S5x256 .f32) : FVec Ideal S2048x5 .f32 :=
  log (maximumf (broadcast S2048x5 (Scalar.ofBits .f32 0x3F400000#32))
    (logistic (subf (broadcast S2048x5 (Scalar.ofBits .f32 0x00000000#32)) (dots x0 x2))))

/-- Every row's sum of its five negative terms, as a column. -/
def negCol (x0 : FVec Ideal S2048x256 .f32) (x2 : FVec Ideal S5x256 .f32) : FVec Ideal S2048x1 .f32 :=
  shapeCast S2048x1
    (multiReduction .add [1] S2048 (negTerms x0 x2) 0x00000000#32 reduces_S2048x5_S2048 (.inl rfl) rfl)
    shapeCasts_S2048_S2048x1

/-- Every row's positive term, as a column: `log (max ε (σ ⟨c, t⟩))`. -/
def posCol (x0 x1 : FVec Ideal S2048x256 .f32) : FVec Ideal S2048x1 .f32 :=
  log (maximumf (broadcast S2048x1 (Scalar.ofBits .f32 0x3089705F#32))
    (logistic (shapeCast S2048x1
      (multiReduction .add [1] S2048 (mulf x0 x1) 0x00000000#32 reduces_S2048x256_S2048 (.inl rfl) rfl)
      shapeCasts_S2048_S2048x1)))

/-- The body's term is the running total plus the sum down the column of the rows' positive and negative parts. -/
theorem pay2_eq (x0 x1 : FVec Ideal S2048x256 .f32) (x2 : FVec Ideal S5x256 .f32) (xo : FVec Ideal S1x1 .f32) :
    k0_pay2 (F := Ideal) x0 x1 x2 xo
      = addf (shapeCast S1x1 xo shapeCasts_S1x1_S1x1)
          (shapeCast S1x1
            (multiReduction .add [0] S1 (addf (posCol x0 x1) (negCol x0 x2)) 0x00000000#32 reduces_S2048x1_S1 (.inl rfl) rfl)
            shapeCasts_S1_S1x1) := rfl

/-- Entry `(r, s)` of the product is the dot product of context row `r` with sampled row `s`. -/
theorem dots_apply (x0 : FVec Ideal S2048x256 .f32) (x2 : FVec Ideal S5x256 .f32) (r : Fin 2048) (s : Fin 5) :
    dots x0 x2 (ix2 r s) = ∑ k : Fin 256, x0 (ix2 r k) * x2 (ix2 s k) := by
  unfold dots
  refine (matmul_apply_rs _ _ r s).trans ?_
  refine Finset.sum_congr rfl fun k _ => ?_
  refine congrArg (x0 (ix2 r k) * ·) ?_
  refine (transpose_ix2_apply _ _ k s).trans ?_
  show shapeCast S5x256 x2 shapeCasts_S5x256_S5x256 (ix2 s k) = x2 (ix2 s k)
  rw [shapeCast_self]

/-- Entry `(r, s)` of the negative terms is the specification's negative term at that dot product. -/
theorem negTerms_apply (x0 : FVec Ideal S2048x256 .f32) (x2 : FVec Ideal S5x256 .f32) (r : Fin 2048) (s : Fin 5) :
    negTerms x0 x2 (ix2 r s) = Cert.Sgns.negTerm (∑ k : Fin 256, x0 (ix2 r k) * x2 (ix2 s k)) := by
  unfold negTerms Cert.Sgns.negTerm
  refine congrArg (fun d => Ideal.log (max (Ideal.ofBits .f32 0x3F400000#32) (Ideal.logistic d))) ?_
  show Ideal.ofBits .f32 0x00000000#32 - dots x0 x2 (ix2 r s) = _
  rw [Ideal.ofBits_zero_f32, zero_sub, dots_apply]

/-- Row `r` of the positive column is the specification's positive term at the row's dot product. -/
theorem posCol_apply (x0 x1 : FVec Ideal S2048x256 .f32) (r : Fin 2048) (u : Fin 1) :
    posCol x0 x1 (ix2 r u) = Cert.Sgns.posTerm (∑ k : Fin 256, x0 (ix2 r k) * x1 (ix2 r k)) := by
  unfold posCol Cert.Sgns.posTerm
  refine congrArg (fun d => Ideal.log (max (Ideal.ofBits .f32 0x3089705F#32) (Ideal.logistic d))) ?_
  refine (colCast_apply _ _ r u).trans ?_
  exact laneSum_apply (mulf x0 x1) _ _ _ r

/-- Row `r` of the two columns' sum is the row's loss. -/
theorem rowCol_apply (x0 x1 : FVec Ideal S2048x256 .f32) (x2 : FVec Ideal S5x256 .f32) (r : Fin 2048) (u : Fin 1) :
    addf (posCol x0 x1) (negCol x0 x2) (ix2 r u)
      = Cert.Sgns.rowLoss (fun k => x0 (ix2 r k)) (fun k => x1 (ix2 r k)) (fun s k => x2 (ix2 s k)) := by
  unfold Cert.Sgns.rowLoss
  refine congrArg₂ (· + ·) (posCol_apply x0 x1 r u) ?_
  unfold negCol
  refine (colCast_apply _ _ r u).trans ?_
  refine (laneSum_apply (negTerms x0 x2) _ _ _ r).trans ?_
  exact Finset.sum_congr rfl fun s _ => negTerms_apply x0 x2 r s

/-! ## The tile -/

/-- What the body stores: the running total plus the loss of the tile's 2048 rows. -/
theorem pay2_apply (x0 x1 : Vec Ideal S2048x256 .f32) (x2 : Vec Ideal S5x256 .f32) (xo : Vec Ideal S1x1 .f32)
    (j : S1x1.Idx) :
    k0_pay2 (F := Ideal) x0 x1 x2 xo j = xo j + Cert.Sgns.tileLoss x0 x1 x2 := by
  obtain ⟨p, q, rfl⟩ : ∃ (p : Fin 1) (q : Fin 1), j = ix2 p q := ⟨j 0, j 1, eq_ix2 j⟩
  rw [pay2_eq]
  refine congrArg₂ (· + ·) ?_ ?_
  · exact congrFun (shapeCast_self xo _) _
  · refine (shapeCast_a_1a_apply _ _ p q).trans ?_
    refine (colSum_apply _ _ _ _ q).trans ?_
    unfold Cert.Sgns.tileLoss
    exact Finset.sum_congr rfl fun r _ => rowCol_apply x0 x1 x2 r q

end Cert.KernelIdeal.TilePayload

end
-- ==== Proof.Pieces.lean ====
/-
  What the kernel body leaves in the running total's staging buffer at a grid point, as a value: the body's
  one arithmetic term (the sum of the tile's row losses added to what the buffer held), at the first point
  over the zero block it has just stored, at every later point over what the point before left.
-/
import proofs.«177092_j56530359550797_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The two zero offsets of a whole-block access, as the constant function. -/
theorem hz : (![0, 0] : Fin 2 → Nat) = fun _ => 0 := funext fun a => by fin_cases a <;> rfl

/-- At a grid point other than the first the body leaves, in the running total's buffer holding `xo`, the one
    covering store's payload: the body's arithmetic of the three loaded blocks and of `xo`. -/
theorem out_B (c : Dev nD) (i : grid0.Coords) (a1 : Memref sig .tc .vmem S2048x256 .f32) (h1 : a1.IsWhole)
    (a2 : Memref sig .tc .vmem S2048x256 .f32) (h2 : a2.IsWhole) (a3 : Memref sig .tc .vmem S5x256 .f32) (h3 : a3.IsWhole)
    (a4 : Memref sig .tc .vmem S1x1 .f32) (h4 : a4.IsWhole) (hc : ¬cond0_0 i)
    (x0 x1 : Vec F S2048x256 .f32) (x2 : Vec F S5x256 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz]
  simp only [View.readAt_eq_ld, h1.read_unread, h2.read_unread, h3.read_unread, h4.read_unread,
    View.ld_unit_zero (S := S2048x256) hz, View.ld_unit_zero (S := S5x256) hz, View.ld_unit_zero (S := S1x1) hz]

/-- At the first grid point the body first stores the zero block, reads it back, and leaves the same arithmetic
    of the three loaded blocks and of that zero block. -/
theorem out_A (c : Dev nD) (i : grid0.Coords) (a1 : Memref sig .tc .vmem S2048x256 .f32) (h1 : a1.IsWhole)
    (a2 : Memref sig .tc .vmem S2048x256 .f32) (h2 : a2.IsWhole) (a3 : Memref sig .tc .vmem S5x256 .f32) (h3 : a3.IsWhole)
    (a4 : Memref sig .tc .vmem S1x1 .f32) (h4 : a4.IsWhole) (hc : cond0_0 i)
    (x0 x1 : Vec F S2048x256 .f32) (x2 : Vec F S5x256 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S2048x256) hz, View.ld_unit_zero (S := S5x256) hz]

end Cert.KernelIdeal.Acc

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.KernelValue.lean ====
/-
  The kernel's result as a value, at the extended reals.

  The grid has 128 points; point `t` loads rows `2048 t … 2048 t + 2047` of the context and target arrays and the
  whole array of the five sampled rows, and adds the tile's loss to a running total that the first point starts
  from zero. So the running total after point `n` is the sum of the losses of tiles `0 … n` (`outsAt_eq`,
  `acc_last`), a tile's loss is the sum of the row losses of its 2048 rows read off the argument arrays
  (`tile_eq`), and the total after the last point is the loss of the whole batch (`total_eq`): a sum over
  `128 · 2048` rows regrouped by tiles, which holds in any commutative monoid. The only write-back of the [1,1]
  result block is after the last point, so the result array ends at that total (`final_o`), and the host's
  reshape to a scalar reads it (`tail_eq`). The body's arithmetic enters through one law, `PayLaw`: the stored
  payload is what the buffer held plus the tile's loss.
-/
import proofs.«177092_j56530359550797_1_alg».proof.Proof.Pieces
import proofs.«177092_j56530359550797_1_alg».proof.Proof.Spec
import proofs.«177092_j56530359550797_1_alg».proof.Proof.LibChainSum
import proofs.«177092_j56530359550797_1_alg».proof.Proof.LibSumSplit
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- The body's arithmetic, as the one law the accumulation needs: the payload of the body's last store is what
    the running total's buffer held plus the loss of the tile the body loaded. -/
def PayLaw : Prop :=
  ∀ (x0 x1 : Vec Ideal S2048x256 .f32) (x2 : Vec Ideal S5x256 .f32) (xo : Vec Ideal S1x1 .f32) (j : S1x1.Idx),
    k0_pay2 (F := Ideal) x0 x1 x2 xo j = xo j + Cert.Sgns.tileLoss x0 x1 x2

/-- The zero block the first point stores is zero. -/
theorem pay1_apply (j : S1x1.Idx) : k0_pay1 (F := Ideal) j = 0 := by
  show Ideal.ofBits .f32 0x00000000#32 = 0
  exact Ideal.ofBits_zero_f32

/-- The loss of the tile grid point `t` loads. -/
def tile (c : Dev nD) (t : Fin cfg0.N) : EReal :=
  Cert.Sgns.tileLoss (iblk m c 0 t : Vec Ideal S2048x256 .f32) (iblk m c 1 t : Vec Ideal S2048x256 .f32)
    (iblk m c 2 t : Vec Ideal S5x256 .f32)

/-- The running total after point `n`: the first tile's loss, then one more tile per point. -/
def acc (c : Dev nD) : (n : ℕ) → n < cfg0.N → EReal
  | 0, h => tile m c ⟨0, h⟩
  | n + 1, h => acc c n (Nat.lt_of_succ_lt h) + tile m c ⟨n + 1, h⟩

/-- What the running total's buffer holds after point `n` is that running total, by induction on the point. -/
theorem outsAt_eq (hpay : PayLaw) (c : Dev nD) :
    ∀ (n : ℕ) (h : n < cfg0.N) (j : S1x1.Idx), outsAt0 m c n h j = acc m c n h
  | 0, h, j => by
    refine (congrFun ((outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) _ (iblk m c 0 ⟨0, h⟩) (iblk m c 1 ⟨0, h⟩) (iblk m c 2 ⟨0, h⟩))) j).trans ?_
    refine (hpay _ _ _ _ j).trans ?_
    rw [pay1_apply, zero_add]
    rfl
  | n + 1, h, j => by
    have hN : cfg0.N = 128 := N_0
    have h' : n + 1 < 128 := lt_of_lt_of_eq h hN
    have hB : ¬(⟨n + 1, h⟩ : Fin cfg0.N).val % 128 = 0 := by dsimp only; omega
    refine (congrFun ((outsAt0_B m c ⟨n + 1, h⟩ hB).trans
      (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) _
        (iblk m c 0 ⟨n + 1, h⟩) (iblk m c 1 ⟨n + 1, h⟩) (iblk m c 2 ⟨n + 1, h⟩) _)) j).trans ?_
    refine (hpay _ _ _ _ j).trans ?_
    show outsAt0 m c n _ j + _ = acc m c n _ + _
    rw [outsAt_eq hpay c n]
    rfl

/-- After the last point the running total is the sum of the 128 tiles' losses. -/
theorem acc_last (c : Dev nD) (h : 127 < cfg0.N) :
    acc m c 127 h = ∑ i : Fin (127 + 1), tile m c ⟨i.val, lt_of_le_of_lt (Nat.le_of_lt_succ i.isLt) h⟩ :=
  Cert.ChainSum.chain_eq_sum (tile m c) (acc m c) (fun _ => rfl) (fun _ _ => rfl) 127 h

/-! ## The blocks, read off the arrays -/

/-- Block `t` of the context array starts at row `2048 t`, column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Block `t` of the target array likewise. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The sampled rows' one block is the whole array. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Entry `(r, k)` of the context block at point `t` is entry `(2048 t + r, k)` of the context array. -/
theorem iblk0_apply (c : Dev nD) (t : Fin cfg0.N) (r : Fin 2048) (k : Fin 256) (b : Fin 262144)
    (hb : b.val = t.val * 2048 + r.val) :
    (iblk m c 0 t : Vec Ideal S2048x256 .f32) (ix2 r k) = m ((c : Thread nD τ).loc main_arg0) (ix2 b k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = b.val; rw [hi.1]; omega
  | ⟨1, _⟩ => show win0_0.index t 1 * 256 + 1 * k.val = k.val; rw [hi.2]; omega

/-- Entry `(r, k)` of the target block at point `t` is entry `(2048 t + r, k)` of the target array. -/
theorem iblk1_apply (c : Dev nD) (t : Fin cfg0.N) (r : Fin 2048) (k : Fin 256) (b : Fin 262144)
    (hb : b.val = t.val * 2048 + r.val) :
    (iblk m c 1 t : Vec Ideal S2048x256 .f32) (ix2 r k) = m ((c : Thread nD τ).loc main_arg1) (ix2 b k) := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * r.val = b.val; rw [hi.1]; omega
  | ⟨1, _⟩ => show win0_1.index t 1 * 256 + 1 * k.val = k.val; rw [hi.2]; omega

/-- The sampled rows' block at any point is the array of sampled rows the host computed before the region. -/
theorem iblk2_apply (c : Dev nD) (t : Fin cfg0.N) (j : Fin 5) (k : Fin 256) :
    (iblk m c 2 t : Vec Ideal S5x256 .f32) (ix2 j k) = V m c main_v6 (ix2 j k) := by
  have hi := idx2 t
  unfold iblk
  rw [View.read_apply]
  show V m c main_v6 _ = V m c main_v6 _
  congr 1
  funext a
  apply Fin.ext
  match a with
  | ⟨0, _⟩ => show win0_2.index t 0 * 5 + 1 * j.val = j.val; rw [hi.1]; omega
  | ⟨1, _⟩ => show win0_2.index t 1 * 256 + 1 * k.val = k.val; rw [hi.2]; omega

/-- A row's loss depends only on the entries of its three arguments. -/
theorem rowLoss_congr {c c' t t' : Fin 256 → EReal} {s s' : Fin 5 → Fin 256 → EReal}
    (hc : ∀ k, c k = c' k) (ht : ∀ k, t k = t' k) (hs : ∀ j k, s j k = s' j k) :
    Cert.Sgns.rowLoss c t s = Cert.Sgns.rowLoss c' t' s' := by
  obtain rfl : c = c' := funext hc
  obtain rfl : t = t' := funext ht
  obtain rfl : s = s' := funext fun j => funext (hs j)
  rfl

/-- Tile `i`'s loss is the sum of the row losses of rows `2048 i … 2048 i + 2047` of the argument arrays. -/
theorem tile_eq (c : Dev nD) (i : Fin 128) (h : i.val < cfg0.N) :
    tile m c ⟨i.val, h⟩ = ∑ r : Fin 2048,
      Cert.Sgns.rowLoss (fun k => m ((c : Thread nD τ).loc main_arg0) (ix2 (Cert.PointDist.tileIdx (a := 128) (b := 2048) (N := 262144) rfl i r) k))
        (fun k => m ((c : Thread nD τ).loc main_arg1) (ix2 (Cert.PointDist.tileIdx (a := 128) (b := 2048) (N := 262144) rfl i r) k))
        (fun j k => V m c main_v6 (ix2 j k)) := by
  unfold tile Cert.Sgns.tileLoss
  refine Finset.sum_congr rfl fun r _ => ?_
  exact rowLoss_congr (fun k => iblk0_apply m c ⟨i.val, h⟩ r k _ rfl) (fun k => iblk1_apply m c ⟨i.val, h⟩ r k _ rfl)
    (fun j k => iblk2_apply m c ⟨i.val, h⟩ j k)

/-- The running total after the last point is the loss of the whole batch. -/
theorem total_eq (c : Dev nD) (h : 127 < cfg0.N) :
    acc m c 127 h = Cert.Sgns.loss (m ((c : Thread nD τ).loc main_arg0)) (m ((c : Thread nD τ).loc main_arg1)) (V m c main_v6) := by
  rw [acc_last]
  unfold Cert.Sgns.loss
  rw [Cert.PointDist.sum_tiles (a := 128) (b := 2048) (N := 262144) rfl]
  exact Finset.sum_congr rfl fun i _ => tile_eq m c i _

/-! ## The result array and the scalar read from it -/

/-- The grid's last point. -/
theorem h127 : 127 < cfg0.N := by rw [show cfg0.N = 128 from N_0]; decide
abbrev tLast : Fin cfg0.N := ⟨127, h127⟩

/-- The [1,1] result array's final contents: the running total after the last point. -/
abbrev result (c : Dev nD) : Buf (Elt Ideal) ((c : Thread nD τ).loc main_v7) := fun _ => acc m c 127 h127

/-- The one write-back, after the last point, writes the running total: the result block is the whole array. -/
theorem flushed_eq (hpay : PayLaw) (c : Dev nD) (t : Fin cfg0.N) (hf : (cfg0.win 3).flush t = true) :
    (dats m 0 c).flushed 3 t = ((cfg0.win 3).blk t).view.read (Elt Ideal) (result m c) := by
  have hN : cfg0.N = 128 := N_0
  have ht : t.val < 128 := lt_of_lt_of_eq t.isLt hN
  have h3 : t.val = 127 := by have := (flush0_3 t).mp hf; omega
  obtain rfl : t = tLast := Fin.ext h3
  show (cfg0.win 3).cut (grid0.coords tLast) ((dats m 0 c).after 3 tLast) = _
  rw [after0_3]
  have e : outsAt0 m c tLast.val tLast.isLt = result m c := funext fun j => outsAt_eq m hpay c 127 h127 j
  rw [e]
  have hz' : (fun a => win0_3.index tLast a * main_v7.ty.shape.size a) = fun _ => 0 :=
    funext fun a => by fin_cases a <;> decide +kernel
  exact (Memref.read_access_unit_zero (Elt Ideal) main_v7 hz' (fun a => by rw [congrFun hz' a]; simp) (result m c)).symm

/-- So the result array ends holding the running total after the last point. -/
theorem final_o (hpay : PayLaw) (c : Dev nD) : (dats m 0 c).arrAt 3 cfg0.N = result m c :=
  (dats m 0 c).arrAt_eq_of_cover 3 (result m c) (flushed_eq m hpay c) fun i =>
    ⟨tLast, (flush0_3 tLast).mpr rfl, by
      show i ∈ ((View.whole main_v7).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host's reshape of the [1,1] result array to a scalar reads the running total. -/
theorem tail_eq (hpay : PayLaw) (c : Dev nD) (i : S_.Idx) :
    Pipeline.afterTail₀ cfgs (dats m) 0 (V0 m) [hostOps1] c main_v8 i = acc m c 127 h127 := by
  unfold Pipeline.afterTail₀
  show StableHlo.after hostOps1 _ (Proc.devRef .tc main_v8) i = _
  after_results
  have hw : Pipeline.withArrays (cfgs 0).spec c (V0 m c) (fun w => (dats m 0 c).arrAt w (cfgs 0).N) (Proc.tc.devRef main_v7)
      = result m c :=
    (Pipeline.withArrays_arr spec0 launch0.win.arr_inj c _ _ 3).trans (final_o m hpay c)
  dsimp only
  rw [hw]
  rfl

/-- The kernel's run, read: the scalar result is the loss of the whole batch — of the context and target arrays
    as launched and of the sampled rows the host computed before the region — and the arguments end unchanged. -/
theorem run (hpay : PayLaw) :
    θ_run defs (onTc (τ := τ) (main (F := Ideal))) ⟨m, fun _ => 0, ρ⟩ fun r => ∀ c : Dev nD,
      r.2.mem ((c.tc : Thread nD τ).loc main_v8)
        = (fun _ => Cert.Sgns.loss (m ((c : Thread nD τ).loc main_arg0)) (m ((c : Thread nD τ).loc main_arg1)) (V m c main_v6) :
            Buf (Elt Ideal) ((c.tc : Thread nD τ).loc main_v8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans
        (funext fun i => (tail_eq m hpay c i).trans (total_eq m c h127)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.lean ====
/-
  The certificate of the skip-gram negative-sampling loss kernel against its jnp reference.

  Both programs compute, over the extended reals, the sum over the 262144 batch rows of
  `log (max ε (σ ⟨c, t⟩)) + ∑ j, log (max β (σ (-⟨c, s j⟩)))`, where `c`, `t` are the row's context and target
  vectors, `s j` the five embedding rows both programs gather on the host by the same operations, and `σ` the
  logistic function (the kernel's one operation and the reference's `1 / (1 + exp (-x))` are one function there).
  The kernel takes the sum tile by tile over a grid of 128 points into a running total; the reference takes it in
  one host sum. Addition of extended reals is commutative and associative, so regrouping the sum by tiles changes
  nothing, and no use is made of the inputs being finite.

  The frames of the two kernel programs and the reference's run are the generated ones; the idealized kernel is
  the kernel's own text read at the extended reals, so `preserves` is trivial.
-/
import proofs.«177092_j56530359550797_1_alg».proof.Defs
import proofs.«177092_j56530359550797_1_alg».proof.Proof.Gen.Kernel
import proofs.«177092_j56530359550797_1_alg».proof.Proof.Gen.Kernel.Skeleton
import proofs.«177092_j56530359550797_1_alg».proof.Proof.Gen.Kernel.Launch
import proofs.«177092_j56530359550797_1_alg».proof.Proof.Gen.Kernel.Points
import proofs.«177092_j56530359550797_1_alg».proof.Proof.Gen.Kernel.Frame
import proofs.«177092_j56530359550797_1_alg».proof.Proof.Gen.KernelIdeal
import proofs.«177092_j56530359550797_1_alg».proof.Proof.Gen.KernelIdeal.Skeleton
import proofs.«177092_j56530359550797_1_alg».proof.Proof.Gen.KernelIdeal.Launch
import proofs.«177092_j56530359550797_1_alg».proof.Proof.Gen.KernelIdeal.Points
import proofs.«177092_j56530359550797_1_alg».proof.Proof.Gen.KernelIdeal.Frame
import proofs.«177092_j56530359550797_1_alg».proof.Proof.Gen.ReferenceIdeal
import proofs.«177092_j56530359550797_1_alg».proof.Proof.Gen.Pre_finite_inputs
import proofs.«177092_j56530359550797_1_alg».proof.Proof.RefLoss
import proofs.«177092_j56530359550797_1_alg».proof.Proof.TilePayload
import proofs.«177092_j56530359550797_1_alg».proof.Proof.KernelValue
import Idealize.ShloMosaic.Adequacy
import Idealize.ShloMosaic.Init

noncomputable section

namespace Cert.Proof

open Idealize.ShloMosaic Idealize.ShloMosaic.TcCoe Idealize.SL.Sem

/-- The array of sampled rows the kernel's region finds is the reference's gather of the same arguments: the
    nine host operations before the region are the reference's own (the index normalisation, then the gather). -/
theorem sampled_rows (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v6 : Cert.KernelIdeal.S5x256.Idx → EReal)
      = Cert.ReferenceIdeal.Read.val_main_v16 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v6) = _
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the batch loss of the same arrays: the kernel's running total after the last grid
    point, the reference's one sum. -/
theorem algebraic : Cert.algebraic_KernelIdeal_ReferenceIdeal := by
  intro m ρ m' ρ' _ hagree
  refine ⟨_, Cert.KernelIdeal.Acc.run m ρ Cert.KernelIdeal.TilePayload.pay2_apply, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq (F := Ideal) _ _ _ _).trans ?_
  funext i
  rw [Cert.ReferenceIdeal.RefLoss.ref_loss, (hagree c).1, (hagree c).2.1, (hagree c).2.2.1, (hagree c).2.2.2,
    sampled_rows m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
